-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000x128 : Shape := ⟨2, ![400000, 128]⟩
abbrev S300000x128 : Shape := ⟨2, ![300000, 128]⟩
abbrev S128x128 : Shape := ⟨2, ![128, 128]⟩
abbrev S800000 : Shape := ⟨1, ![800000]⟩
abbrev S900000 : Shape := ⟨1, ![900000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S300000x128 : S_.BroadcastsInDim S300000x128 (![] : Fin 0 → Fin S300000x128.rank)
  reducesTo_S300000x128_S_d0_1 : S300000x128.ReducesTo [0, 1] S_
  bcast_S_S128x128 : S_.BroadcastsInDim S128x128 (![] : Fin 0 → Fin S128x128.rank)
  reducesTo_S128x128_S_d0_1 : S128x128.ReducesTo [0, 1] S_
  bcast_S_S800000 : S_.BroadcastsInDim S800000 (![] : Fin 0 → Fin S800000.rank)
  reducesTo_S800000_S_d0 : S800000.ReducesTo [0] S_
  bcast_S_S900000 : S_.BroadcastsInDim S900000 (![] : Fin 0 → Fin S900000.rank)
  reducesTo_S900000_S_d0 : S900000.ReducesTo [0] S_

variable [Facts]

def fn_part1 {F : FTy → Type} [FloatOps F] (main_arg4 : FVec F S128x128 .f32) (main_arg7 : FVec F S800000 .f32) (main_arg10 : FVec F S900000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S800000 .f32 := Host.absf main_arg7
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  let main_v29 : FVec F S900000 .f32 := Host.absf main_arg10
  let main_cst_10 : FVec F S_ .f32 := constant S_ .f32 0x7F800000#32
  let main_v30 : FVec F S900000 .f32 := broadcastInDim S900000 ![] bcast_S_S900000 main_cst_10
  let main_v31 : IVec S900000 1 := cmpf .olt main_v29 main_v30
  let main_c_11 : IVec S_ 1 := constantI S_ 1 1#1
  let main_v32 : IVec S_ 1 := (fun x v => Host.reduce IntOp.andi x v reducesTo_S900000_S_d0 h_S_) main_v31 main_c_11
  let main_v33 : IVec S_ 1 := andi main_v28 main_v32
  main_v33

def fn {F : FTy → Type} [FloatOps F] (main_arg0 : FVec F S100000x128 .f32) (main_arg1 : FVec F S400000x128 .f32) (main_arg2 : FVec F S300000x128 .f32) (main_arg3 : FVec F S128x128 .f32) (main_arg4 : FVec F S128x128 .f32) (main_arg5 : IVec S800000 32) (main_arg6 : IVec S800000 32) (main_arg7 : FVec F S800000 .f32) (main_arg8 : IVec S900000 32) (main_arg9 : IVec S900000 32) (main_arg10 : FVec F S900000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S300000x128 .f32 := Host.absf main_arg2
  let main_cst_2 : FVec F S_ .f32 := constant S_ .f32 0x7F800000#32
  let main_v10 : FVec F S300000x128 .f32 := broadcastInDim S300000x128 ![] bcast_S_S300000x128 main_cst_2
  let main_v11 : IVec S300000x128 1 := cmpf .olt main_v9 main_v10
  let main_c_3 : IVec S_ 1 := constantI S_ 1 1#1
  let main_v12 : IVec S_ 1 := (fun x v => Host.reduce IntOp.andi x v reducesTo_S300000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg7 main_arg10 main_v13 main_v16
-- ==== Kernel.lean ====
abbrev S100000x128 : Shape := ⟨2, ![100000, 128]⟩
abbrev S400000x128 : Shape := ⟨2, ![400000, 128]⟩
abbrev S300000x128 : Shape := ⟨2, ![300000, 128]⟩
abbrev S128x128 : Shape := ⟨2, ![128, 128]⟩
abbrev S800000 : Shape := ⟨1, ![800000]⟩
abbrev S900000 : Shape := ⟨1, ![900000]⟩
abbrev S10000x128 : Shape := ⟨2, ![10000, 128]⟩
abbrev S_ : Shape := ⟨0, ![]⟩
abbrev S800000x1 : Shape := ⟨2, ![800000, 1]⟩
abbrev S800000x128 : Shape := ⟨2, ![800000, 128]⟩
abbrev S900000x1 : Shape := ⟨2, ![900000, 1]⟩
abbrev S900000x128 : Shape := ⟨2, ![900000, 128]⟩

abbrev nBuf : Space → Nat
  | .hbm => 61
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S300000x128, .f32⟩
  | .hbm, ⟨3, _⟩ => ⟨S128x128, .f32⟩
  | .hbm, ⟨4, _⟩ => ⟨S128x128, .f32⟩
  | .hbm, ⟨5, _⟩ => ⟨S800000, .i32⟩
  | .hbm, ⟨6, _⟩ => ⟨S800000, .i32⟩
  | .hbm, ⟨7, _⟩ => ⟨S800000, .f32⟩
  | .hbm, ⟨8, _⟩ => ⟨S900000, .i32⟩
  | .hbm, ⟨9, _⟩ => ⟨S900000, .i32⟩
  | .hbm, ⟨10, _⟩ => ⟨S900000, .f32⟩
  | .hbm, ⟨11, _⟩ => ⟨S100000x128, .f32⟩
  | .hbm, ⟨12, _⟩ => ⟨S400000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S400000x128, .f32⟩
  | .hbm, ⟨27, _⟩ => ⟨S800000x1, .i32⟩
  | .hbm, ⟨28, _⟩ => ⟨S400000x128, .f32⟩
  | .hbm, ⟨29, _⟩ => ⟨S400000x128, .f32⟩
  | .hbm, ⟨30, _⟩ => ⟨S400000x128, .f32⟩
  | .hbm, ⟨31, _⟩ => ⟨S_, .f32⟩
  | .hbm, ⟨32, _⟩ => ⟨S400000x128, .f32⟩
  | .hbm, ⟨33, _⟩ => ⟨S400000x128, .f32⟩
  | .hbm, ⟨34, _⟩ => ⟨S_, .f32⟩
  | .hbm, ⟨35, _⟩ => ⟨S400000x128, .f32⟩
  | .hbm, ⟨36, _⟩ => ⟨S400000x128, .f32⟩
  | .hbm, ⟨37, _⟩ => ⟨S_, .i32⟩
  | .hbm, ⟨38, _⟩ => ⟨S900000, .i32⟩
  | .hbm, ⟨39, _⟩ => ⟨S900000, .i1⟩
  | .hbm, ⟨40, _⟩ => ⟨S_, .i32⟩
  | .hbm, ⟨41, _⟩ => ⟨S900000, .i32⟩
  | .hbm, ⟨42, _⟩ => ⟨S900000, .i32⟩
  | .hbm, ⟨43, _⟩ => ⟨S900000, .i32⟩
  | .hbm, ⟨44, _⟩ => ⟨S900000x1, .i32⟩
  | .hbm, ⟨45, _⟩ => ⟨S900000x128, .f32⟩
  | .hbm, ⟨46, _⟩ => ⟨S900000x1, .f32⟩
  | .hbm, ⟨47, _⟩ => ⟨S900000x128, .f32⟩
  | .hbm, ⟨48, _⟩ => ⟨S900000x128, .f32⟩
  | .hbm, ⟨49, _⟩ => ⟨S_, .f32⟩
  | .hbm, ⟨50, _⟩ => ⟨S300000x128, .f32⟩
  | .hbm, ⟨51, _⟩ => ⟨S900000x1, .i32⟩
  | .hbm, ⟨52, _⟩ => ⟨S300000x128, .f32⟩
  | .hbm, ⟨53, _⟩ => ⟨S300000x128, .f32⟩
  | .hbm, ⟨54, _⟩ => ⟨S300000x128, .f32⟩
  | .hbm, ⟨55, _⟩ => ⟨S_, .f32⟩
  | .hbm, ⟨56, _⟩ => ⟨S300000x128, .f32⟩
  | .hbm, ⟨57, _⟩ => ⟨S300000x128, .f32⟩
  | .hbm, ⟨58, _⟩ => ⟨S_, .f32⟩
  | .hbm, ⟨59, _⟩ => ⟨S300000x128, .f32⟩
  | .hbm, ⟨60, _⟩ => ⟨S300000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S400000x128 : S_.BroadcastsInDim S400000x128 (![] : Fin 0 → Fin S400000x128.rank)
  bcast_S_S900000 : S_.BroadcastsInDim S900000 (![] : Fin 0 → Fin S900000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S300000x128 : S_.BroadcastsInDim S300000x128 (![] : Fin 0 → Fin S300000x128.rank)
  dot_S10000x128_S128x128_S10000x128_1_0_0_1_n_n_wf : DotDims.WF S10000x128 S128x128 S10000x128 [1] [0] [0] [1] [] []
  gather_S100000x128_S800000x1_S800000x128_1_0_n_n_0_1_1128_wf : GatherDims.WF S100000x128 S800000x1 S800000x128 [1] [0] [] [0] [] 1 ![1, 128]
  scatter_S400000x128_S800000x1_S800000x128_1_0_0_1_wf : ScatterDims.WF S400000x128 S800000x1 S800000x128 [1] [0] [0] 1
  gather_S400000x128_S900000x1_S900000x128_1_0_n_n_0_1_1128_wf : GatherDims.WF S400000x128 S900000x1 S900000x128 [1] [0] [] [0] [] 1 ![1, 128]
  scatter_S300000x128_S900000x1_S900000x128_1_0_0_1_wf : ScatterDims.WF S300000x128 S900000x1 S900000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S400000x128.size a
  hwx1_0 : ∀ i : grid1.Coords, EltTy.bits .f32 = 32 ∨ (Rect.block (s := S400000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S400000x128.size a
  hwx1_2 : ∀ i : grid1.Coords, EltTy.bits .f32 = 32 ∨ (Rect.block (s := S400000x128) S10000x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf
def gather_S400000x128_S900000x1_S900000x128_1_0_n_n_0_1_1128 : GatherDims S400000x128 S900000x1 S900000x128 where
  offsetDims := [1]
  collapsedSliceDims := [0]
  operandBatchingDims := []
  startIndicesBatchingDims := []
  startIndexMap := [0]
  indexVectorDim := 1
  sliceSizes := ![1, 128]
  wf := gather_S400000x128_S900000x1_S900000x128_1_0_n_n_0_1_1128_wf
def scatter_S300000x128_S900000x1_S900000x128_1_0_0_1 : ScatterDims S300000x128 S900000x1 S900000x128 where
  updateWindowDims := [1]
  insertedWindowDims := [0]
  scatterDimsToOperandDims := [0]
  indexVectorDim := 1
  wf := scatter_S300000x128_S900000x1_S900000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S400000x128 : Shape := ⟨2, ![400000, 128]⟩
abbrev S300000x128 : Shape := ⟨2, ![300000, 128]⟩
abbrev S128x128 : Shape := ⟨2, ![128, 128]⟩
abbrev S800000 : Shape := ⟨1, ![800000]⟩
abbrev S900000 : Shape := ⟨1, ![900000]⟩
abbrev S_ : Shape := ⟨0, ![]⟩
abbrev S800000x1 : Shape := ⟨2, ![800000, 1]⟩
abbrev S800000x128 : Shape := ⟨2, ![800000, 128]⟩
abbrev S900000x1 : Shape := ⟨2, ![900000, 1]⟩
abbrev S900000x128 : Shape := ⟨2, ![900000, 128]⟩

abbrev nBuf : Space → Nat
  | .hbm => 61
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S300000x128, .f32⟩
  | .hbm, ⟨3, _⟩ => ⟨S128x128, .f32⟩
  | .hbm, ⟨4, _⟩ => ⟨S128x128, .f32⟩
  | .hbm, ⟨5, _⟩ => ⟨S800000, .i32⟩
  | .hbm, ⟨6, _⟩ => ⟨S800000, .i32⟩
  | .hbm, ⟨7, _⟩ => ⟨S800000, .f32⟩
  | .hbm, ⟨8, _⟩ => ⟨S900000, .i32⟩
  | .hbm, ⟨9, _⟩ => ⟨S900000, .i32⟩
  | .hbm, ⟨10, _⟩ => ⟨S900000, .f32⟩
  | .hbm, ⟨11, _⟩ => ⟨S100000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S400000x128, .f32⟩
  | .hbm, ⟨26, _⟩ => ⟨S800000x1, .i32⟩
  | .hbm, ⟨27, _⟩ => ⟨S400000x128, .f32⟩
  | .hbm, ⟨28, _⟩ => ⟨S400000x128, .f32⟩
  | .hbm, ⟨29, _⟩ => ⟨S400000x128, .f32⟩
  | .hbm, ⟨30, _⟩ => ⟨S_, .f32⟩
  | .hbm, ⟨31, _⟩ => ⟨S400000x128, .f32⟩
  | .hbm, ⟨32, _⟩ => ⟨S400000x128, .f32⟩
  | .hbm, ⟨33, _⟩ => ⟨S_, .f32⟩
  | .hbm, ⟨34, _⟩ => ⟨S400000x128, .f32⟩
  | .hbm, ⟨35, _⟩ => ⟨S400000x128, .f32⟩
  | .hbm, ⟨36, _⟩ => ⟨S400000x128, .f32⟩
  | .hbm, ⟨37, _⟩ => ⟨S_, .i32⟩
  | .hbm, ⟨38, _⟩ => ⟨S900000, .i32⟩
  | .hbm, ⟨39, _⟩ => ⟨S900000, .i1⟩
  | .hbm, ⟨40, _⟩ => ⟨S_, .i32⟩
  | .hbm, ⟨41, _⟩ => ⟨S900000, .i32⟩
  | .hbm, ⟨42, _⟩ => ⟨S900000, .i32⟩
  | .hbm, ⟨43, _⟩ => ⟨S900000, .i32⟩
  | .hbm, ⟨44, _⟩ => ⟨S900000x1, .i32⟩
  | .hbm, ⟨45, _⟩ => ⟨S900000x128, .f32⟩
  | .hbm, ⟨46, _⟩ => ⟨S900000x1, .f32⟩
  | .hbm, ⟨47, _⟩ => ⟨S900000x128, .f32⟩
  | .hbm, ⟨48, _⟩ => ⟨S900000x128, .f32⟩
  | .hbm, ⟨49, _⟩ => ⟨S_, .f32⟩
  | .hbm, ⟨50, _⟩ => ⟨S300000x128, .f32⟩
  | .hbm, ⟨51, _⟩ => ⟨S900000x1, .i32⟩
  | .hbm, ⟨52, _⟩ => ⟨S300000x128, .f32⟩
  | .hbm, ⟨53, _⟩ => ⟨S300000x128, .f32⟩
  | .hbm, ⟨54, _⟩ => ⟨S300000x128, .f32⟩
  | .hbm, ⟨55, _⟩ => ⟨S_, .f32⟩
  | .hbm, ⟨56, _⟩ => ⟨S300000x128, .f32⟩
  | .hbm, ⟨57, _⟩ => ⟨S300000x128, .f32⟩
  | .hbm, ⟨58, _⟩ => ⟨S_, .f32⟩
  | .hbm, ⟨59, _⟩ => ⟨S300000x128, .f32⟩
  | .hbm, ⟨60, _⟩ => ⟨S300000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S400000x128 : S_.BroadcastsInDim S400000x128 (![] : Fin 0 → Fin S400000x128.rank)
  bcast_S_S900000 : S_.BroadcastsInDim S900000 (![] : Fin 0 → Fin S900000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S300000x128 : S_.BroadcastsInDim S300000x128 (![] : Fin 0 → Fin S300000x128.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S400000x128_S800000x1_S800000x128_1_0_0_1_wf : ScatterDims.WF S400000x128 S800000x1 S800000x128 [1] [0] [0] 1
  dot_S400000x128_S128x128_S400000x128_1_0_0_1_n_n_wf : DotDims.WF S400000x128 S128x128 S400000x128 [1] [0] [0] [1] [] []
  gather_S400000x128_S900000x1_S900000x128_1_0_n_n_0_1_1128_wf : GatherDims.WF S400000x128 S900000x1 S900000x128 [1] [0] [] [0] [] 1 ![1, 128]
  scatter_S300000x128_S900000x1_S900000x128_1_0_0_1_wf : ScatterDims.WF S300000x128 S900000x1 S900000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S400000x128_S900000x1_S900000x128_1_0_n_n_0_1_1128 : GatherDims S400000x128 S900000x1 S900000x128 where
  offsetDims := [1]
  collapsedSliceDims := [0]
  operandBatchingDims := []
  startIndicesBatchingDims := []
  startIndexMap := [0]
  indexVectorDim := 1
  sliceSizes := ![1, 128]
  wf := gather_S400000x128_S900000x1_S900000x128_1_0_n_n_0_1_1128_wf
def scatter_S300000x128_S900000x1_S900000x128_1_0_0_1 : ScatterDims S300000x128 S900000x1 S900000x128 where
  updateWindowDims := [1]
  insertedWindowDims := [0]
  scatterDimsToOperandDims := [0]
  indexVectorDim := 1
  wf := scatter_S300000x128_S900000x1_S900000x128_1_0_0_1_wf

class Facts : Prop extends Facts₀ where

variable [Facts]
-- ==== Proof.BlockProduct.lean ====
/-
  One grid point of either GEMM region computes, on its [10000,128] block `x` of the left operand and the whole
  [128,128] weight matrix `w`, the matrix product into a zero accumulator. At the ideal instance the two roundings to
  bf16 are the identity and the product is the exact sum, so entry (p, q) of what the point stores is
  `∑ k < 128, x[p, k] · w[k, q]`. Both regions store the same payload term, so one lemma serves both.
-/
import proofs.«108879_j36309653520609_1_alg».proof.Proof.Gen.KernelIdeal.Skeleton
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.TcCoe Idealize.SL.Sem

/-- Entry `(row of j, k)` of a [10000,128] block: the left factor of the `k`-th term of output entry `j`. -/
abbrev rowAt (j : S10000x128.Idx) (k : Fin 128) : S10000x128.Idx := fun a => match a with
  | ⟨0, _⟩ => ⟨(j 0).val, (j 0).isLt⟩
  | ⟨1, _⟩ => ⟨k.val, k.isLt⟩
/-- Entry `(k, column of j)` of the [128,128] weight matrix: the right factor of that term. -/
abbrev colAt (j : S10000x128.Idx) (k : Fin 128) : S128x128.Idx := fun a => match a with
  | ⟨0, _⟩ => ⟨k.val, k.isLt⟩
  | ⟨1, _⟩ => ⟨(j 1).val, (j 1).isLt⟩

/-- The left operand's index at output entry `j` keeps `j`'s row (axis 0 is not contracted) -/
theorem lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- and runs over the contracted axis along its columns. -/
theorem lhs_col (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- The right operand's index runs over the contracted axis along its rows -/
theorem rhs_row (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
/-- and keeps `j`'s column. -/
theorem rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- THE PAYLOAD AT AN ENTRY: what a point of region 0 stores at `j` is the plain sum over the 128 contracted
    positions of the block's row entry times the weight's column entry. -/
theorem pay0_apply (x : Vec Ideal S10000x128 .f32) (w : Vec Ideal S128x128 .f32) (j : S10000x128.Idx) :
    k0_pay1 (F := Ideal) x w j = ∑ k : Fin 128, x (rowAt j k) * w (colAt j k) := by
  unfold k0_pay1
  refine (Ideal.matmul_constant_zero_apply dot_S10000x128_S128x128_S10000x128_1_0_0_1_n_n none
    (truncf (F := Ideal) .bf16 x bitsLt_bf16_f32) (truncf (F := Ideal) .bf16 w bitsLt_bf16_f32) j).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = rowAt j k := funext fun a => Fin.ext (by
    match a with
    | ⟨0, _⟩ => exact lhs_row _ _
    | ⟨1, _⟩ => exact (lhs_col _ _).trans hk)
  have er : dot_S10000x128_S128x128_S10000x128_1_0_0_1_n_n.rhsIdx j ((ValueIdx.contrEquiv1 dot_S10000x128_S128x128_S10000x128_1_0_0_1_n_n 128 rfl rfl).symm k) = colAt j k := funext fun a => Fin.ext (by
    match a with
    | ⟨0, _⟩ => exact (rhs_row _ _).trans hk
    | ⟨1, _⟩ => exact rhs_col _ _)
  rw [el, er]
  rfl

/-- Region 1's points store the same term of their own block. -/
theorem pay1_apply (x : Vec Ideal S10000x128 .f32) (w : Vec Ideal S128x128 .f32) (j : S10000x128.Idx) :
    k1_pay1 (F := Ideal) x w j = ∑ k : Fin 128, x (rowAt j k) * w (colAt j k) :=
  pay0_apply x w j

end Cert.KernelIdeal.Block

end
-- ==== Proof.RowsTimesMatrix.lean ====
/-
  The specification both sides meet: for an array `x` of `M` rows of 128 entries and a [128,128] matrix `w`,
  the product `x · w`, entry by entry: `(x · w)[r, q] = ∑ k < 128, x[r, k] · w[k, q]` on the extended reals.
  Nothing here mentions a program.
-/
import Idealize.ShloMosaic.PureOps.Ideal
import Idealize.ShloMosaic.Lib.ValueIdx

noncomputable section

namespace Cert.Spec

open Idealize.ShloMosaic

/-- Entry `(row of i, k)` of an array of `M` rows. -/
abbrev leftAt (M : Nat) (i : (⟨2, ![M, 128]⟩ : Shape).Idx) (k : Fin 128) : (⟨2, ![M, 128]⟩ : Shape).Idx := fun a => match a with
  | ⟨0, _⟩ => ⟨(i 0).val, (i 0).isLt⟩
  | ⟨1, _⟩ => ⟨k.val, k.isLt⟩
/-- Entry `(k, column of i)` of the [128,128] matrix. -/
abbrev rightAt (M : Nat) (i : (⟨2, ![M, 128]⟩ : Shape).Idx) (k : Fin 128) : (⟨2, ![128, 128]⟩ : Shape).Idx := fun a => match a with
  | ⟨0, _⟩ => ⟨k.val, k.isLt⟩
  | ⟨1, _⟩ => ⟨(i 1).val, (i 1).isLt⟩

/-- `x · w`: each entry the sum over the 128 contracted positions of row entry times column entry. -/
def rowsTimes (M : Nat) (x : Vec Ideal ⟨2, ![M, 128]⟩ .f32) (w : Vec Ideal ⟨2, ![128, 128]⟩ .f32) : Vec Ideal ⟨2, ![M, 128]⟩ .f32 :=
  fun i => ∑ k : Fin 128, x (leftAt M i k) * w (rightAt M i k)

end Cert.Spec

end
-- ==== Proof.Region0.lean ====
/-
  Region 0 of the program: the GEMM kernel on a grid of 10 points, point `t` reading rows `10000·t … 10000·t + 9999`
  of the 100000-row left operand and the whole weight matrix, and writing the same rows of the result. Whatever the
  buffers hold when the region is entered (`V`), the result array ends holding the product of the two operand arrays as
  the region found them, entry by entry: a point's store is the product of its row block, the row blocks tile the array,
  and a row block of the product is the product of the row block.
-/
import proofs.«108879_j36309653520609_1_alg».proof.Proof.Gen.KernelIdeal.Frame
import proofs.«108879_j36309653520609_1_alg».proof.Proof.BlockProduct
import proofs.«108879_j36309653520609_1_alg».proof.Proof.RowsTimesMatrix
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the grid: the left operand's block and the result's block are both row block `t`
    (column block 0), the weight's block is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- ONE ENTRY OF ONE POINT'S STORE, over plain variables: if the row block `xb` and the staged weight `wb` hold, at the
    factors of entry `j`, what the arrays `X` and `W` hold at the factors of entry `i`, the stored entry is the
    product's entry `i`. -/
theorem point_entry (X : Vec Ideal S100000x128 .f32) (W : Vec Ideal S128x128 .f32) (xb : Vec Ideal S10000x128 .f32) (wb : Vec Ideal S128x128 .f32)
    (j : S10000x128.Idx) (i : S100000x128.Idx)
    (hx : ∀ k : Fin 128, xb (Block.rowAt j k) = X (Spec.leftAt 100000 i k))
    (hw : ∀ k : Fin 128, wb (Block.colAt j k) = W (Spec.rightAt 100000 i k)) :
    k0_pay1 (F := Ideal) xb wb j = Spec.rowsTimes 100000 X W i := by
  rw [Block.pay0_apply]
  exact Finset.sum_congr rfl fun k _ => by rw [hx k, hw k]

/-- WHAT POINT `t` WRITES BACK is row block `t` of the product of the operand arrays as the region finds them. -/
theorem flushed_eq (c : Dev nD) (t : Fin cfg0.N) :
    (dat0 V c).flushed 2 t = ((cfg0.win 2).blk t).view.read (Elt Ideal) (Spec.rowsTimes 100000 (V c main_arg0) (V c main_arg3)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x128) zero_off]
  obtain ⟨e0, e1, e2, e3, e4, e5⟩ := idx_facts t
  funext j
  refine point_entry (V c main_arg0) (V c main_arg3) (iblk0 V c 0 t) (iblk0 V c 1 t) j (((cfg0.win 2).blk t).view.emb j) (fun k => ?_) (fun k => ?_)
  · show V c main_arg0 (((cfg0.win 0).blk t).view.emb (Block.rowAt j k)) = V c main_arg0 (Spec.leftAt 100000 (((cfg0.win 2).blk t).view.emb j) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg3 (((cfg0.win 1).blk t).view.emb (Block.colAt j k)) = V c main_arg3 (Spec.rightAt 100000 (((cfg0.win 2).blk t).view.emb j) k)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An entry of the result array lies in point `t`'s block iff each coordinate lies in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- THE RESULT ARRAY after the region: the product, everywhere — row `r` is written by point `r / 10000`. -/
theorem final (c : Dev nD) : (dat0 V c).arrAt 2 cfg0.N = Spec.rowsTimes 100000 (V c main_arg0) (V c main_arg3) :=
  (dat0 V c).arrAt_eq_of_cover 2 (Spec.rowsTimes 100000 (V c main_arg0) (V c main_arg3)) (fun t _ => flushed_eq V c t) fun i => by
    have hN : grid0.N = 10 := N_0
    have hi0 : (i 0).val < 100000 := (i 0).isLt
    have hi1 : (i 1).val < 128 := (i 1).isLt
    have ht : (i 0).val / 10000 < grid0.N := by rw [hN]; omega
    obtain ⟨e0, e1, e2, e3, e4, e5⟩ := idx_facts ⟨(i 0).val / 10000, ht⟩
    refine ⟨⟨(i 0).val / 10000, ht⟩, flush0_2 _, ?_⟩
    rw [mem_blk]
    intro a
    match a with
    | ⟨0, _⟩ =>
      show win0_2.index ⟨(i 0).val / 10000, ht⟩ (0 : Fin 2) * 10000 ≤ (i 0).val ∧ (i 0).val < win0_2.index ⟨(i 0).val / 10000, ht⟩ (0 : Fin 2) * 10000 + 10000
      rw [e4]; show (i 0).val / 10000 * 10000 ≤ (i 0).val ∧ (i 0).val < (i 0).val / 10000 * 10000 + 10000; omega
    | ⟨1, _⟩ =>
      show win0_2.index ⟨(i 0).val / 10000, ht⟩ (1 : Fin 2) * 128 ≤ (i 1).val ∧ (i 1).val < win0_2.index ⟨(i 0).val / 10000, ht⟩ (1 : Fin 2) * 128 + 128
      rw [e5]; omega

end Cert.KernelIdeal.Region0

end
-- ==== Proof.Region1.lean ====
/-
  Region 1 of the program: the GEMM kernel on a grid of 40 points, point `t` reading rows `10000·t … 10000·t + 9999`
  of the 400000-row left operand and the whole weight matrix, and writing the same rows of the result. Whatever the
  buffers hold when the region is entered (`V`), the result array ends holding the product of the two operand arrays as
  the region found them, entry by entry: a point's store is the product of its row block, the row blocks tile the array,
  and a row block of the product is the product of the row block.
-/
import proofs.«108879_j36309653520609_1_alg».proof.Proof.Gen.KernelIdeal.Frame
import proofs.«108879_j36309653520609_1_alg».proof.Proof.BlockProduct
import proofs.«108879_j36309653520609_1_alg».proof.Proof.RowsTimesMatrix
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the grid: the left operand's block and the result's block are both row block `t`
    (column block 0), the weight's block is always block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- ONE ENTRY OF ONE POINT'S STORE, over plain variables: if the row block `xb` and the staged weight `wb` hold, at the
    factors of entry `j`, what the arrays `X` and `W` hold at the factors of entry `i`, the stored entry is the
    product's entry `i`. -/
theorem point_entry (X : Vec Ideal S400000x128 .f32) (W : Vec Ideal S128x128 .f32) (xb : Vec Ideal S10000x128 .f32) (wb : Vec Ideal S128x128 .f32)
    (j : S10000x128.Idx) (i : S400000x128.Idx)
    (hx : ∀ k : Fin 128, xb (Block.rowAt j k) = X (Spec.leftAt 400000 i k))
    (hw : ∀ k : Fin 128, wb (Block.colAt j k) = W (Spec.rightAt 400000 i k)) :
    k1_pay1 (F := Ideal) xb wb j = Spec.rowsTimes 400000 X W i := by
  rw [Block.pay1_apply]
  exact Finset.sum_congr rfl fun k _ => by rw [hx k, hw k]

/-- WHAT POINT `t` WRITES BACK is row block `t` of the product of the operand arrays as the region finds them. -/
theorem flushed_eq (c : Dev nD) (t : Fin cfg1.N) :
    (dat1 V c).flushed 2 t = ((cfg1.win 2).blk t).view.read (Elt Ideal) (Spec.rowsTimes 400000 (V c main_arg1) (V c main_arg4)) := by
  show (cfg1.win 2).cut (grid1.coords t) ((dat1 V c).after 2 t) = _
  rw [after1_2]
  unfold out1_2
  rw [View.canon_unit_zero zero_off]
  simp only [View.ld_unit_zero (S := S10000x128) zero_off, View.ld_unit_zero (S := S128x128) zero_off]
  obtain ⟨e0, e1, e2, e3, e4, e5⟩ := idx_facts t
  funext j
  refine point_entry (V c main_arg1) (V c main_arg4) (iblk1 V c 0 t) (iblk1 V c 1 t) j (((cfg1.win 2).blk t).view.emb j) (fun k => ?_) (fun k => ?_)
  · show V c main_arg1 (((cfg1.win 0).blk t).view.emb (Block.rowAt j k)) = V c main_arg1 (Spec.leftAt 400000 (((cfg1.win 2).blk t).view.emb j) k)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  · show V c main_arg4 (((cfg1.win 1).blk t).view.emb (Block.colAt j k)) = V c main_arg4 (Spec.rightAt 400000 (((cfg1.win 2).blk t).view.emb j) k)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An entry of the result array lies in point `t`'s block iff each coordinate lies in the block's range on its axis. -/
theorem mem_blk (t : Fin cfg1.N) (i : S400000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v1).slice (win1_2.rect t)).set ↔ _
  rw [View.set_slice_whole, Rect.mem_set_unit]
  exact Iff.rfl

/-- THE RESULT ARRAY after the region: the product, everywhere — row `r` is written by point `r / 10000`. -/
theorem final (c : Dev nD) : (dat1 V c).arrAt 2 cfg1.N = Spec.rowsTimes 400000 (V c main_arg1) (V c main_arg4) :=
  (dat1 V c).arrAt_eq_of_cover 2 (Spec.rowsTimes 400000 (V c main_arg1) (V c main_arg4)) (fun t _ => flushed_eq V c t) fun i => by
    have hN : grid1.N = 40 := N_1
    have hi0 : (i 0).val < 400000 := (i 0).isLt
    have hi1 : (i 1).val < 128 := (i 1).isLt
    have ht : (i 0).val / 10000 < grid1.N := by rw [hN]; omega
    obtain ⟨e0, e1, e2, e3, e4, e5⟩ := idx_facts ⟨(i 0).val / 10000, ht⟩
    refine ⟨⟨(i 0).val / 10000, ht⟩, flush1_2 _, ?_⟩
    rw [mem_blk]
    intro a
    match a with
    | ⟨0, _⟩ =>
      show win1_2.index ⟨(i 0).val / 10000, ht⟩ (0 : Fin 2) * 10000 ≤ (i 0).val ∧ (i 0).val < win1_2.index ⟨(i 0).val / 10000, ht⟩ (0 : Fin 2) * 10000 + 10000
      rw [e4]; show (i 0).val / 10000 * 10000 ≤ (i 0).val ∧ (i 0).val < (i 0).val / 10000 * 10000 + 10000; omega
    | ⟨1, _⟩ =>
      show win1_2.index ⟨(i 0).val / 10000, ht⟩ (1 : Fin 2) * 128 ≤ (i 1).val ∧ (i 1).val < win1_2.index ⟨(i 0).val / 10000, ht⟩ (1 : Fin 2) * 128 + 128
      rw [e5]; omega

end Cert.KernelIdeal.Region1

end
-- ==== Proof.Incidence.lean ====
/-
  What both programs do to a GEMM result `h`, as ONE function per output. For a list of `n` weighted incidences
  `(rows[e], cols[e], vals[e])`: take row `rows[e]` of `h` (a negative index counted from the end), scale it by
  `vals[e]`, add it into row `cols[e]` of a zero array, and apply the logistic function `1 / (1 + exp (−·))` entry by
  entry. The kernel program and the reference apply exactly this chain of host operations, with the same literals, to
  their own `h`; so once the two `h` are equal the outputs are, and the chain itself is never opened.
-/
import proofs.«108879_j36309653520609_1_alg».proof.Proof.Gen.KernelIdeal

noncomputable section

namespace Cert.KernelIdeal.Incidence

open Cert.KernelIdeal Cert.KernelIdeal.Gen Idealize.ShloMosaic Idealize.ShloMosaic.TcCoe Idealize.SL.Sem

variable {F : FTy → Type} [FloatOps F]

/-- Output 1: the 800000 incidences from the 100000 rows of `h` into 400000 rows. -/
def up1 (h : (⟨S100000x128, .f32⟩ : BufTy).Contents (Elt F)) (rows cols : (⟨S800000, .i32⟩ : BufTy).Contents (Elt F))
    (vals : (⟨S800000, .f32⟩ : BufTy).Contents (Elt F)) : (⟨S400000x128, .f32⟩ : BufTy).Contents (Elt F) :=
  Host.divf (broadcastInDim S400000x128 ![] bcast_S_S400000x128 (constant S_ .f32 0x3F800000#32)) (addf (broadcastInDim S400000x128 ![] bcast_S_S400000x128 (constant S_ .f32 0x3F800000#32)) (Host.exp (Host.negf (Host.scatterAdd scatter_S400000x128_S800000x1_S800000x128_1_0_0_1 (broadcastInDim S400000x128 ![] bcast_S_S400000x128 (constant S_ .f32 0x00000000#32)) (broadcastInDim S800000x1 ![0] bcast_S800000_S800000x1_0 (cols)) (mulf (Host.gather gather_S100000x128_S800000x1_S800000x128_1_0_n_n_0_1_1128 (h) (broadcastInDim S800000x1 ![0] bcast_S800000_S800000x1_0 (select (cmpi .slt (rows) (broadcastInDim S800000 ![] bcast_S_S800000 (constantI S_ 32 0#32))) (addi (rows) (broadcastInDim S800000 ![] bcast_S_S800000 (constantI S_ 32 100000#32))) (rows)))) (broadcastInDim S800000x128 ![0, 1] bcast_S800000x1_S800000x128_0_1 (broadcastInDim S800000x1 ![0] bcast_S800000_S800000x1_0 (vals))))))))

/-- Output 2: the 900000 incidences from the 400000 rows of `h` into 300000 rows. -/
def up2 (h : (⟨S400000x128, .f32⟩ : BufTy).Contents (Elt F)) (rows cols : (⟨S900000, .i32⟩ : BufTy).Contents (Elt F))
    (vals : (⟨S900000, .f32⟩ : BufTy).Contents (Elt F)) : (⟨S300000x128, .f32⟩ : BufTy).Contents (Elt F) :=
  Host.divf (broadcastInDim S300000x128 ![] bcast_S_S300000x128 (constant S_ .f32 0x3F800000#32)) (addf (broadcastInDim S300000x128 ![] bcast_S_S300000x128 (constant S_ .f32 0x3F800000#32)) (Host.exp (Host.negf (Host.scatterAdd scatter_S300000x128_S900000x1_S900000x128_1_0_0_1 (broadcastInDim S300000x128 ![] bcast_S_S300000x128 (constant S_ .f32 0x00000000#32)) (broadcastInDim S900000x1 ![0] bcast_S900000_S900000x1_0 (cols)) (mulf (Host.gather gather_S400000x128_S900000x1_S900000x128_1_0_n_n_0_1_1128 (h) (broadcastInDim S900000x1 ![0] bcast_S900000_S900000x1_0 (select (cmpi .slt (rows) (broadcastInDim S900000 ![] bcast_S_S900000 (constantI S_ 32 0#32))) (addi (rows) (broadcastInDim S900000 ![] bcast_S_S900000 (constantI S_ 32 400000#32))) (rows)))) (broadcastInDim S900000x128 ![0, 1] bcast_S900000x1_S900000x128_0_1 (broadcastInDim S900000x1 ![0] bcast_S900000_S900000x1_0 (vals))))))))

end Cert.KernelIdeal.Incidence

end
-- ==== Proof.KernelRun.lean ====
/-
  The whole run of the idealized kernel program, with what every buffer holds at the end: from any launch memory with
  zero counters every weakly fair execution terminates without a fault, and on every core each unscoped TensorCore
  buffer ends at the contents of the last segment boundary — the launch memory carried through region 0's write-backs,
  region 1's write-backs and the host operations after them (`Gen.W3`). The frame claim reads the argument buffers
  off this; the value claim reads the two result buffers.
-/
import proofs.«108879_j36309653520609_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every unscoped buffer of every core ends at the last boundary's contents: the segments' chain from the launch, the
    last thread state read against the final memory. -/
theorem ends_at_last_boundary : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The same for the buffer of a named unscoped reference `b` of @main. -/
theorem ends_at (b : Ref sig .tc) (hb : ¬ (Proc.devRef .tc b : DevRef τ sig).isScoped)
    (r : PUnit × MemSt nD τ sig (Elt F))
    (h : ∀ c : Dev nD, ∀ b ∈ Pipeline.ucRefs τ sig, r.2.mem (((c : Thread nD τ)).1, b) = W3 m ρ c b) (c : Dev nD) :
    r.2.mem ((c.tc : Thread nD τ).loc b) = W3 m ρ c (Proc.devRef .tc b) :=
  h c _ (mem_uc b hb)

end Cert.KernelIdeal.WholeRun

end
-- ==== Proof.KernelValue.lean ====
/-
  The two results of the idealized kernel program as functions of its arguments. After region 0 the buffer `h1` holds
  the product `x0 · W1` and after region 1 the buffer `h2` holds `x1 · W2` (a region changes only its own result
  array, so region 1 finds `x1` and `W2` as launched and leaves `h1` alone); the host operations after the regions
  then apply the incidence chain to `h1` with the first triple of index and weight arguments, and to `h2` with the
  second, none of which anything has written. So the results are `up1 (x0 · W1) …` and `up2 (x1 · W2) …`.
-/
import proofs.«108879_j36309653520609_1_alg».proof.Proof.Gen.KernelIdeal.Frame
import proofs.«108879_j36309653520609_1_alg».proof.Proof.Region0
import proofs.«108879_j36309653520609_1_alg».proof.Proof.Region1
import proofs.«108879_j36309653520609_1_alg».proof.Proof.Incidence
import proofs.«108879_j36309653520609_1_alg».proof.Proof.KernelRun
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## What the last stretch of host operations finds -/

/-- `h1` as region 1 leaves it is as region 0 left it: the product of the first operand pair as launched. -/
theorem entry_h1 (c : Dev nD) : W2 m ρ c (Proc.devRef .tc main_v0)
    = Spec.rowsTimes 100000 (m ((c : Thread nD τ).loc main_arg0)) (m ((c : Thread nD τ).loc main_arg3)) :=
  calc W2 m ρ c (Proc.devRef .tc main_v0)
    _ = W1 m ρ c (Proc.devRef .tc main_v0) := W2_of_ne m ρ c main_v0 (by decide)
    _ = (dat0 (V0 m ρ) c).arrAt 2 cfg0.N := W1_arr m ρ c 2
    _ = Spec.rowsTimes 100000 (V0 m ρ c main_arg0) (V0 m ρ c main_arg3) := Region0.final (V0 m ρ) c
    _ = Spec.rowsTimes 100000 (m ((c : Thread nD τ).loc main_arg0)) (m ((c : Thread nD τ).loc main_arg3)) := rfl

/-- Region 1 finds its two operands as launched (region 0 wrote neither). -/
theorem found_x1 (c : Dev nD) : V1 m ρ c main_arg1 = m ((c : Thread nD τ).loc main_arg1) :=
  (W1_of_ne m ρ c main_arg1 (by decide)).trans rfl
theorem found_w2 (c : Dev nD) : V1 m ρ c main_arg4 = m ((c : Thread nD τ).loc main_arg4) :=
  (W1_of_ne m ρ c main_arg4 (by decide)).trans rfl

/-- `h2` as region 1 leaves it: the product of the second operand pair as launched. -/
theorem entry_h2 (c : Dev nD) : W2 m ρ c (Proc.devRef .tc main_v1)
    = Spec.rowsTimes 400000 (m ((c : Thread nD τ).loc main_arg1)) (m ((c : Thread nD τ).loc main_arg4)) :=
  calc W2 m ρ c (Proc.devRef .tc main_v1)
    _ = (dat1 (V1 m ρ) c).arrAt 2 cfg1.N := W2_arr m ρ c 2
    _ = Spec.rowsTimes 400000 (V1 m ρ c main_arg1) (V1 m ρ c main_arg4) := Region1.final (V1 m ρ) c
    _ = Spec.rowsTimes 400000 (m ((c : Thread nD τ).loc main_arg1)) (m ((c : Thread nD τ).loc main_arg4)) := by rw [found_x1, found_w2]

/-! The index and weight arguments reach the host operations as launched: no region has them among its arrays. -/

theorem entry_5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

theorem entry_6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

theorem entry_7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

theorem entry_8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

theorem entry_9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl

theorem entry_10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

/-! ## The host operations after the regions -/

/-- The first result buffer after the host operations is the first incidence chain of what they found. -/
theorem after_up1 (Wv : Valuation τ sig (Elt Ideal)) : StableHlo.after hostOps2 Wv (Proc.devRef .tc main_v20)
    = Incidence.up1 (Wv (Proc.devRef .tc main_v0)) (Wv (Proc.devRef .tc main_arg5)) (Wv (Proc.devRef .tc main_arg6)) (Wv (Proc.devRef .tc main_arg7)) := by
  after_results_simp
  rfl

/-- The second result buffer after the host operations is the second incidence chain of what they found. -/
theorem after_up2 (Wv : Valuation τ sig (Elt Ideal)) : StableHlo.after hostOps2 Wv (Proc.devRef .tc main_v39)
    = Incidence.up2 (Wv (Proc.devRef .tc main_v1)) (Wv (Proc.devRef .tc main_arg8)) (Wv (Proc.devRef .tc main_arg9)) (Wv (Proc.devRef .tc main_arg10)) := by
  after_results_simp
  rfl

/-! ## The results at the last boundary -/

theorem last_v20 (c : Dev nD) : W3 m ρ c (Proc.devRef .tc main_v20)
    = Incidence.up1 (Spec.rowsTimes 100000 (m ((c : Thread nD τ).loc main_arg0)) (m ((c : Thread nD τ).loc main_arg3))) (m ((c : Thread nD τ).loc main_arg5)) (m ((c : Thread nD τ).loc main_arg6)) (m ((c : Thread nD τ).loc main_arg7)) := by
  rw [← entry_h1 m ρ c, ← entry_5 m ρ c, ← entry_6 m ρ c, ← entry_7 m ρ c]
  exact after_up1 (W2 m ρ c)

theorem last_v39 (c : Dev nD) : W3 m ρ c (Proc.devRef .tc main_v39)
    = Incidence.up2 (Spec.rowsTimes 400000 (m ((c : Thread nD τ).loc main_arg1)) (m ((c : Thread nD τ).loc main_arg4))) (m ((c : Thread nD τ).loc main_arg8)) (m ((c : Thread nD τ).loc main_arg9)) (m ((c : Thread nD τ).loc main_arg10)) := by
  rw [← entry_h2 m ρ c, ← entry_8 m ρ c, ← entry_9 m ρ c, ← entry_10 m ρ c]
  exact after_up2 (W2 m ρ c)

/-! ## The run, read -/

/-- Every weakly fair execution of the idealized kernel program terminates with the two results at the incidence chains
    of the two products, and the arguments unchanged. -/
theorem run : θ_run defs (onTc (τ := τ) (main (F := Ideal))) ⟨m, fun _ => 0, ρ⟩ fun r => ∀ c : Dev nD,
      r.2.mem ((c.tc : Thread nD τ).loc main_v20) = Incidence.up1 (Spec.rowsTimes 100000 (m ((c : Thread nD τ).loc main_arg0)) (m ((c : Thread nD τ).loc main_arg3))) (m ((c : Thread nD τ).loc main_arg5)) (m ((c : Thread nD τ).loc main_arg6)) (m ((c : Thread nD τ).loc main_arg7))
      ∧ r.2.mem ((c.tc : Thread nD τ).loc main_v39) = Incidence.up2 (Spec.rowsTimes 400000 (m ((c : Thread nD τ).loc main_arg1)) (m ((c : Thread nD τ).loc main_arg4))) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨(WholeRun.ends_at m ρ main_v20 (by decide) r h c).trans (last_v20 m ρ c),
     (WholeRun.ends_at m ρ main_v39 (by decide) r h c).trans (last_v39 m ρ c),
     (WholeRun.ends_at m ρ main_arg0 (by decide) r h c).trans (W3_main_arg0 m ρ c),
     (WholeRun.ends_at m ρ main_arg1 (by decide) r h c).trans (W3_main_arg1 m ρ c),
     (WholeRun.ends_at m ρ main_arg2 (by decide) r h c).trans (W3_main_arg2 m ρ c),
     (WholeRun.ends_at m ρ main_arg3 (by decide) r h c).trans (W3_main_arg3 m ρ c),
     (WholeRun.ends_at m ρ main_arg4 (by decide) r h c).trans (W3_main_arg4 m ρ c),
     (WholeRun.ends_at m ρ main_arg5 (by decide) r h c).trans (W3_main_arg5 m ρ c),
     (WholeRun.ends_at m ρ main_arg6 (by decide) r h c).trans (W3_main_arg6 m ρ c),
     (WholeRun.ends_at m ρ main_arg7 (by decide) r h c).trans (W3_main_arg7 m ρ c),
     (WholeRun.ends_at m ρ main_arg8 (by decide) r h c).trans (W3_main_arg8 m ρ c),
     (WholeRun.ends_at m ρ main_arg9 (by decide) r h c).trans (W3_main_arg9 m ρ c),
     (WholeRun.ends_at m ρ main_arg10 (by decide) r h c).trans (W3_main_arg10 m ρ c)⟩)
    (WholeRun.ends_at_last_boundary m ρ)

end Cert.KernelIdeal.Result

end
-- ==== Proof.ReferenceValue.lean ====
/-
  The reference's two results as functions of its arguments. Its `dot_general` of an `M`-row array with the [128,128]
  matrix is, at the ideal instance, the product entry by entry (the generated read-at-an-index lemma); and what follows
  each `dot_general` in the reference is, operation by operation and literal by literal, the incidence chain the kernel
  program applies to its GEMM result. So the reference's results are `up1 (x0 · W1) …` and `up2 (x1 · W2) …` too.
-/
import proofs.«108879_j36309653520609_1_alg».proof.Proof.Gen.ReferenceIdeal.Read
import proofs.«108879_j36309653520609_1_alg».proof.Proof.RowsTimesMatrix
import proofs.«108879_j36309653520609_1_alg».proof.Proof.Incidence

noncomputable section

namespace Cert.ReferenceIdeal.RefValue

open Cert.ReferenceIdeal Cert.ReferenceIdeal.Gen Idealize.ShloMosaic Idealize.ShloMosaic.TcCoe Idealize.SL.Sem

/-- The generated lemmas' factor positions are the specification's: (row of i, k) and (k, column of i). -/
theorem left1 (i : S100000x128.Idx) (k : Fin 128) : Read.lidx_main_v0 i k = Spec.leftAt 100000 i k :=
  funext fun a => by match a with | ⟨0, _⟩ => rfl | ⟨1, _⟩ => rfl
theorem right1 (i : S100000x128.Idx) (k : Fin 128) : Read.ridx_main_v0 i k = Spec.rightAt 100000 i k :=
  funext fun a => by match a with | ⟨0, _⟩ => rfl | ⟨1, _⟩ => rfl
theorem left2 (i : S400000x128.Idx) (k : Fin 128) : Read.lidx_main_v20 i k = Spec.leftAt 400000 i k :=
  funext fun a => by match a with | ⟨0, _⟩ => rfl | ⟨1, _⟩ => rfl
theorem right2 (i : S400000x128.Idx) (k : Fin 128) : Read.ridx_main_v20 i k = Spec.rightAt 400000 i k :=
  funext fun a => by match a with | ⟨0, _⟩ => rfl | ⟨1, _⟩ => rfl

/-- The host's product of the 100000-row array with the matrix is the entrywise sum. -/
theorem product1 (x0 : (⟨S100000x128, .f32⟩ : BufTy).Contents (Elt Ideal)) (x3 : (⟨S128x128, .f32⟩ : BufTy).Contents (Elt Ideal)) :
    Read.val_main_v0 (F := Ideal) x0 x3 = Spec.rowsTimes 100000 x0 x3 :=
  funext fun i => by
    rw [Read.val_main_v0_apply]
    show _ = ∑ k : Fin 128, x0 (Spec.leftAt 100000 i k) * x3 (Spec.rightAt 100000 i k)
    exact Finset.sum_congr rfl fun k _ => by rw [left1, right1]

/-- The host's product of the 400000-row array with the matrix is the entrywise sum. -/
theorem product2 (x1 : (⟨S400000x128, .f32⟩ : BufTy).Contents (Elt Ideal)) (x4 : (⟨S128x128, .f32⟩ : BufTy).Contents (Elt Ideal)) :
    Read.val_main_v20 (F := Ideal) x1 x4 = Spec.rowsTimes 400000 x1 x4 :=
  funext fun i => by
    rw [Read.val_main_v20_apply]
    show _ = ∑ k : Fin 128, x1 (Spec.leftAt 400000 i k) * x4 (Spec.rightAt 400000 i k)
    exact Finset.sum_congr rfl fun k _ => by rw [left2, right2]

/-- The first result's stage is the first incidence chain applied to the first product's stage. -/
theorem chain1 (x0 : (⟨S100000x128, .f32⟩ : BufTy).Contents (Elt Ideal)) (x3 : (⟨S128x128, .f32⟩ : BufTy).Contents (Elt Ideal)) (x5 x6 : (⟨S800000, .i32⟩ : BufTy).Contents (Elt Ideal)) (x7 : (⟨S800000, .f32⟩ : BufTy).Contents (Elt Ideal)) :
    Read.val_main_v19 (F := Ideal) x0 x3 x5 x6 x7 = Cert.KernelIdeal.Incidence.up1 (Read.val_main_v0 (F := Ideal) x0 x3) x5 x6 x7 := rfl

/-- The second result's stage is the second incidence chain applied to the second product's stage. -/
theorem chain2 (x1 : (⟨S400000x128, .f32⟩ : BufTy).Contents (Elt Ideal)) (x4 : (⟨S128x128, .f32⟩ : BufTy).Contents (Elt Ideal)) (x8 x9 : (⟨S900000, .i32⟩ : BufTy).Contents (Elt Ideal)) (x10 : (⟨S900000, .f32⟩ : BufTy).Contents (Elt Ideal)) :
    Read.val_main_v39 (F := Ideal) x1 x4 x8 x9 x10 = Cert.KernelIdeal.Incidence.up2 (Read.val_main_v20 (F := Ideal) x1 x4) x8 x9 x10 := rfl

/-- THE FIRST RESULT: the incidence chain of the product `x0 · W1`. -/
theorem result1 (x0 : (⟨S100000x128, .f32⟩ : BufTy).Contents (Elt Ideal)) (x3 : (⟨S128x128, .f32⟩ : BufTy).Contents (Elt Ideal)) (x5 x6 : (⟨S800000, .i32⟩ : BufTy).Contents (Elt Ideal)) (x7 : (⟨S800000, .f32⟩ : BufTy).Contents (Elt Ideal)) :
    Read.val_main_v19 (F := Ideal) x0 x3 x5 x6 x7 = Cert.KernelIdeal.Incidence.up1 (Spec.rowsTimes 100000 x0 x3) x5 x6 x7 :=
  (chain1 x0 x3 x5 x6 x7).trans (congrArg (fun h => Cert.KernelIdeal.Incidence.up1 h x5 x6 x7) (product1 x0 x3))

/-- THE SECOND RESULT: the incidence chain of the product `x1 · W2`. -/
theorem result2 (x1 : (⟨S400000x128, .f32⟩ : BufTy).Contents (Elt Ideal)) (x4 : (⟨S128x128, .f32⟩ : BufTy).Contents (Elt Ideal)) (x8 x9 : (⟨S900000, .i32⟩ : BufTy).Contents (Elt Ideal)) (x10 : (⟨S900000, .f32⟩ : BufTy).Contents (Elt Ideal)) :
    Read.val_main_v39 (F := Ideal) x1 x4 x8 x9 x10 = Cert.KernelIdeal.Incidence.up2 (Spec.rowsTimes 400000 x1 x4) x8 x9 x10 :=
  (chain2 x1 x4 x8 x9 x10).trans (congrArg (fun h => Cert.KernelIdeal.Incidence.up2 h x8 x9 x10) (product2 x1 x4))

end Cert.ReferenceIdeal.RefValue

end
-- ==== Proof.lean ====
/-
  The kernel program computes two GEMMs `h1 = x0 · W1` (100000 rows) and `h2 = x1 · W2` (400000 rows) on the
  TensorCore, each over a grid of row blocks of 10000 rows with the [128,128] weight resident, rounding both operands to
  bf16 on the way into the matrix unit and accumulating from zero; the reference computes the same two products with the
  host's `dot_general`. Both then apply the same chain of host operations to `h1` and `h2`: gather the rows named by an
  index argument, scale by a weight argument, scatter-add into a zero array by a second index argument, and apply the
  logistic function.

  At the ideal instance a rounding is the identity and both products are the exact sums
  `(x · w)[r, q] = ∑ k < 128, x[r, k] · w[k, q]` on the extended reals: a grid point stores the product of its row block
  (Proof/BlockProduct.lean), the row blocks tile the result, so each region leaves the whole product (Proof/Region0.lean,
  Proof/Region1.lean), and the reference's `dot_general` is that sum by its generated read-at-an-index lemma
  (Proof/ReferenceValue.lean). The shared chain is one function per result (Proof/Incidence.lean) applied to equal
  products and to arguments that agree, so it is never opened: no law of the extended reals beyond `0 + s = s` is used, and
  the precondition (finite inputs) is not needed.

  The frames of the two kernel programs are the generated ones; the reference's is its generated run with the results
  dropped. The kernel program's run with its result buffers named is Proof/KernelRun.lean and Proof/KernelValue.lean. The
  ideal pass rewrote nothing, so `preserves` is `True`.
-/
import proofs.«108879_j36309653520609_1_alg».proof.Defs
import proofs.«108879_j36309653520609_1_alg».proof.Proof.Gen.Kernel
import proofs.«108879_j36309653520609_1_alg».proof.Proof.Gen.Kernel.Skeleton
import proofs.«108879_j36309653520609_1_alg».proof.Proof.Gen.Kernel.Launch
import proofs.«108879_j36309653520609_1_alg».proof.Proof.Gen.Kernel.Points
import proofs.«108879_j36309653520609_1_alg».proof.Proof.Gen.Kernel.Frame
import proofs.«108879_j36309653520609_1_alg».proof.Proof.Gen.KernelIdeal
import proofs.«108879_j36309653520609_1_alg».proof.Proof.Gen.KernelIdeal.Skeleton
import proofs.«108879_j36309653520609_1_alg».proof.Proof.Gen.KernelIdeal.Launch
import proofs.«108879_j36309653520609_1_alg».proof.Proof.Gen.KernelIdeal.Points
import proofs.«108879_j36309653520609_1_alg».proof.Proof.Gen.KernelIdeal.Frame
import proofs.«108879_j36309653520609_1_alg».proof.Proof.Gen.ReferenceIdeal
import proofs.«108879_j36309653520609_1_alg».proof.Proof.Gen.Pre_finite_inputs
import proofs.«108879_j36309653520609_1_alg».proof.Proof.Gen.ReferenceIdeal.Run
import proofs.«108879_j36309653520609_1_alg».proof.Proof.Gen.ReferenceIdeal.Read
import proofs.«108879_j36309653520609_1_alg».proof.Proof.KernelValue
import proofs.«108879_j36309653520609_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its generated run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end with result 1 at the first incidence chain of `x0 · W1` and result 2 at the second incidence
    chain of `x1 · W2`, of arguments that agree. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v19_eq, Cert.ReferenceIdeal.RefValue.result1, a0, a3, a5, a6, a7]
  · obtain ⟨a0, a1, a2, a3, a4, a5, a6, a7, a8, a9, a10⟩ := hagree c
    rw [Cert.ReferenceIdeal.Read.val_main_v39_eq, Cert.ReferenceIdeal.RefValue.result2, a1, a4, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
